-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x48 : Shape := ⟨2, ![524288, 48]⟩
abbrev S524288 : Shape := ⟨1, ![524288]⟩
abbrev S66x64 : Shape := ⟨2, ![66, 64]⟩
abbrev S64x128 : Shape := ⟨2, ![64, 128]⟩
abbrev S64 : Shape := ⟨1, ![64]⟩
abbrev S64x64 : Shape := ⟨2, ![64, 64]⟩
abbrev S_ : Shape := ⟨0, ![]⟩
abbrev S524288x4 : Shape := ⟨2, ![524288, 4]⟩

class Facts : Prop where
  bcast_S_S66x64 : S_.BroadcastsInDim S66x64 (![] : Fin 0 → Fin S66x64.rank)
  reducesTo_S66x64_S_d0_1 : S66x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S524288x48_S524288x4_0_43 : S524288x48.Slices ![0, 43] S524288x4
  bcast_S_S524288x4 : S_.BroadcastsInDim S524288x4 (![] : Fin 0 → Fin S524288x4.rank)
  reducesTo_S524288x4_S_d0_1 : S524288x4.ReducesTo [0, 1] S_
  bcast_S_S524288 : S_.BroadcastsInDim S524288 (![] : Fin 0 → Fin S524288.rank)
  reducesTo_S524288_S_d0 : S524288.ReducesTo [0] S_

variable [Facts]

def fn_part2 {F : FTy → Type} [FloatOps F] (main_arg1 : IVec S524288 32) (main_v32 : IVec S_ 1) (main_v33 : IVec S524288 32) : IVec S_ 1 :=
  let main_v34 : IVec S524288 1 := cmpi .sge main_arg1 main_v33
  let main_c_12 : IVec S_ 32 := constantI S_ 32 66#32
  let main_v35 : IVec S524288 32 := broadcastInDim S524288 ![] bcast_S_S524288 main_c_12
  let main_v36 : IVec S524288 1 := cmpi .slt main_arg1 main_v35
  let main_v37 : IVec S524288 1 := andi main_v34 main_v36
  let main_c_13 : IVec S_ 1 := constantI S_ 1 1#1
  let main_v38 : IVec S_ 1 := (fun x v => Host.reduce IntOp.andi x v reducesTo_S524288_S_d0 h_S_) main_v37 main_c_13
  let main_v39 : IVec S_ 1 := andi main_v32 main_v38
  main_v39

def fn_part1 {F : FTy → Type} [FloatOps F] (main_arg0 : IVec S524288x48 32) (main_arg1 : IVec S524288 32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S524288x4 32 := (extractStridedSlice S524288x4 ![0, 43] · slices_S524288x48_S524288x4_0_43) main_arg0
  let main_c_8 : IVec S_ 32 := constantI S_ 32 0#32
  let main_v25 : IVec S524288x4 32 := broadcastInDim S524288x4 ![] bcast_S_S524288x4 main_c_8
  let main_v26 : IVec S524288x4 1 := cmpi .sge main_v24 main_v25
  let main_v27 : IVec S524288x4 32 := (extractStridedSlice S524288x4 ![0, 43] · slices_S524288x48_S524288x4_0_43) main_arg0
  let main_c_9 : IVec S_ 32 := constantI S_ 32 66#32
  let main_v28 : IVec S524288x4 32 := broadcastInDim S524288x4 ![] bcast_S_S524288x4 main_c_9
  let main_v29 : IVec S524288x4 1 := cmpi .slt main_v27 main_v28
  let main_v30 : IVec S524288x4 1 := andi main_v26 main_v29
  let main_c_10 : IVec S_ 1 := constantI S_ 1 1#1
  let main_v31 : IVec S_ 1 := (fun x v => Host.reduce IntOp.andi x v reducesTo_S524288x4_S_d0_1 h_S_) main_v30 main_c_10
  let main_v32 : IVec S_ 1 := andi main_v23 main_v31
  let main_c_11 : IVec S_ 32 := constantI S_ 32 0#32
  let main_v33 : IVec S524288 32 := broadcastInDim S524288 ![] bcast_S_S524288 main_c_11
  fn_part2 (F := F) main_arg1 main_v32 main_v33

def fn {F : FTy → Type} [FloatOps F] (main_arg0 : IVec S524288x48 32) (main_arg1 : IVec S524288 32) (main_arg2 : FVec F S66x64 .f32) (main_arg3 : FVec F S64x128 .f32) (main_arg4 : FVec F S64 .f32) (main_arg5 : FVec F S64x64 .f32) (main_arg6 : FVec F S64 .f32) : IVec S_ 1 :=
  let main_v0 : FVec F S66x64 .f32 := Host.absf main_arg2
  let main_cst : FVec F S_ .f32 := constant S_ .f32 0x7F800000#32
  let main_v1 : FVec F S66x64 .f32 := broadcastInDim S66x64 ![] bcast_S_S66x64 main_cst
  let main_v2 : IVec S66x64 1 := cmpf .olt main_v0 main_v1
  let main_c : IVec S_ 1 := constantI S_ 1 1#1
  let main_v3 : IVec S_ 1 := (fun x v => Host.reduce IntOp.andi x v reducesTo_S66x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg1 main_arg6 main_v13 main_v16
-- ==== Kernel.lean ====
abbrev S524288x48 : Shape := ⟨2, ![524288, 48]⟩
abbrev S524288 : Shape := ⟨1, ![524288]⟩
abbrev S66x64 : Shape := ⟨2, ![66, 64]⟩
abbrev S64x128 : Shape := ⟨2, ![64, 128]⟩
abbrev S64 : Shape := ⟨1, ![64]⟩
abbrev S64x64 : Shape := ⟨2, ![64, 64]⟩
abbrev S524288x4 : Shape := ⟨2, ![524288, 4]⟩
abbrev S524288x1 : Shape := ⟨2, ![524288, 1]⟩
abbrev S524288x5 : Shape := ⟨2, ![524288, 5]⟩
abbrev S128x64 : Shape := ⟨2, ![128, 64]⟩
abbrev S524288x64 : Shape := ⟨2, ![524288, 64]⟩
abbrev S4096x5 : Shape := ⟨2, ![4096, 5]⟩
abbrev S4096x64 : Shape := ⟨2, ![4096, 64]⟩
abbrev S4096x66 : Shape := ⟨2, ![4096, 66]⟩
abbrev S4096x1 : Shape := ⟨2, ![4096, 1]⟩
abbrev S1x64 : Shape := ⟨2, ![1, 64]⟩

abbrev nBuf : Space → Nat
  | .hbm => 15
  | .vmem => 10
  | .smem => 0
  | _ => 0

abbrev bufTy : (tb : Table) → Fin (tcTables nBuf tb) → BufTy
  | .hbm, ⟨0, _⟩ => ⟨S524288x48, .i32⟩
  | .hbm, ⟨1, _⟩ => ⟨S524288, .i32⟩
  | .hbm, ⟨2, _⟩ => ⟨S66x64, .f32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S524288x4, .i32⟩
  | .hbm, ⟨8, _⟩ => ⟨S524288x1, .i32⟩
  | .hbm, ⟨9, _⟩ => ⟨S524288x5, .i32⟩
  | .hbm, ⟨10, _⟩ => ⟨S128x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S524288x64, .f32⟩
  | .local _ .vmem, ⟨0, _⟩ => ⟨S4096x5, .i32⟩
  | .local _ .vmem, ⟨1, _⟩ => ⟨S4096x5, .i32⟩
  | .local _ .vmem, ⟨2, _⟩ => ⟨S66x64, .f32⟩
  | .local _ .vmem, ⟨3, _⟩ => ⟨S64x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S4096x64, .f32⟩
  | .local _ .vmem, ⟨9, _⟩ => ⟨S4096x64, .f32⟩
  | _, _ => ⟨S524288x48, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x5 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S66x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S524288x48_S524288x4_0_43 : S524288x48.Slices ![0, 43] S524288x4
  bcast_S524288_S524288x1_0 : S524288.BroadcastsInDim S524288x1 (![0] : Fin 1 → Fin S524288x1.rank)
  concatenates_S524288x1_S524288x4_S524288x5_d1 : Shape.Concatenates [S524288x1, S524288x4] S524288x5 1
  transposes_S64x128_S128x64_1_0 : S64x128.Transposes [1, 0] S128x64
  slices_S128x64_S64x64_0_0 : S128x64.Slices ![0, 0] S64x64
  slices_S128x64_S64x64_64_0 : S128x64.Slices ![64, 0] S64x64
  transposes_S64x64_S64x64_1_0 : S64x64.Transposes [1, 0] S64x64
  inb_S66x64_S66x64_0_0 : ∀ a, (![0, 0] : Fin 2 → Nat) a + S66x64.size a ≤ S66x64.size a
  h_S66x64 : 0 < S66x64.numel
  bitsLt_bf16_f32 : FTy.bits .bf16 < FTy.bits .f32
  iota_S4096x66_d1_w32 : S4096x66.Iotas .tc 32 [1]
  inb_S4096x5_S4096x1_0_0 : ∀ a, (![0, 0] : Fin 2 → Nat) a + S4096x1.size a ≤ S4096x5.size a
  h_S4096x1 : 0 < S4096x1.numel
  shapeCasts_S4096x1_S4096x1 : S4096x1.ShapeCasts S4096x1
  broadcasts_S4096x1_S4096x66 : S4096x1.Broadcasts S4096x66
  natLt_1_32 : 1 < 32
  inb_S4096x5_S4096x1_0_1 : ∀ a, (![0, 1] : Fin 2 → Nat) a + S4096x1.size a ≤ S4096x5.size a
  inb_S4096x5_S4096x1_0_2 : ∀ a, (![0, 2] : Fin 2 → Nat) a + S4096x1.size a ≤ S4096x5.size a
  inb_S4096x5_S4096x1_0_3 : ∀ a, (![0, 3] : Fin 2 → Nat) a + S4096x1.size a ≤ S4096x5.size a
  inb_S4096x5_S4096x1_0_4 : ∀ a, (![0, 4] : Fin 2 → Nat) a + S4096x1.size a ≤ S4096x5.size a
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  dot_S4096x66_S66x64_S4096x64_1_0_0_1_n_n_wf : DotDims.WF S4096x66 S66x64 S4096x64 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x5.size a ≤ S524288x5.size a
  hwx0_0 : ∀ i : grid0.Coords, EltTy.bits .i32 = 32 ∨ (Rect.block (s := S524288x5) S4096x5.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S66x64.size a ≤ S66x64.size a
  hwx0_1 : ∀ i : grid0.Coords, EltTy.bits .f32 = 32 ∨ (Rect.block (s := S66x64) S66x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x64.size a ≤ S524288x64.size a
  hwx0_7 : ∀ i : grid0.Coords, EltTy.bits .f32 = 32 ∨ (Rect.block (s := S524288x64) S4096x64.size (cc0_transform_7 i) (hinb0_7 i)).WholeWords (EltTy.packing .f32)

variable [Facts₀]

def dot_S4096x66_S66x64_S4096x64_1_0_0_1_n_n : DotDims S4096x66 S66x64 S4096x64 where
  lhsContracting := [1]
  rhsContracting := [0]
  lhsNonContracting := [0]
  rhsNonContracting := [1]
  lhsBatch := []
  rhsBatch := []
  wf := dot_S4096x66_S66x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v2) S4096x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S66x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S4096x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S524288x48 : Shape := ⟨2, ![524288, 48]⟩
abbrev S524288 : Shape := ⟨1, ![524288]⟩
abbrev S66x64 : Shape := ⟨2, ![66, 64]⟩
abbrev S64x128 : Shape := ⟨2, ![64, 128]⟩
abbrev S64 : Shape := ⟨1, ![64]⟩
abbrev S64x64 : Shape := ⟨2, ![64, 64]⟩
abbrev S524288x4 : Shape := ⟨2, ![524288, 4]⟩
abbrev S_ : Shape := ⟨0, ![]⟩
abbrev S524288x4x1 : Shape := ⟨3, ![524288, 4, 1]⟩
abbrev S524288x4x64 : Shape := ⟨3, ![524288, 4, 64]⟩
abbrev S524288x64 : Shape := ⟨2, ![524288, 64]⟩
abbrev S524288x1 : Shape := ⟨2, ![524288, 1]⟩
abbrev S524288x128 : Shape := ⟨2, ![524288, 128]⟩
abbrev S128x64 : Shape := ⟨2, ![128, 64]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S524288x48, .i32⟩
  | .hbm, ⟨1, _⟩ => ⟨S524288, .i32⟩
  | .hbm, ⟨2, _⟩ => ⟨S66x64, .f32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S524288x4, .i32⟩
  | .hbm, ⟨8, _⟩ => ⟨S_, .i32⟩
  | .hbm, ⟨9, _⟩ => ⟨S524288x4, .i32⟩
  | .hbm, ⟨10, _⟩ => ⟨S524288x4, .i1⟩
  | .hbm, ⟨11, _⟩ => ⟨S_, .i32⟩
  | .hbm, ⟨12, _⟩ => ⟨S524288x4, .i32⟩
  | .hbm, ⟨13, _⟩ => ⟨S524288x4, .i32⟩
  | .hbm, ⟨14, _⟩ => ⟨S524288x4, .i32⟩
  | .hbm, ⟨15, _⟩ => ⟨S524288x4x1, .i32⟩
  | .hbm, ⟨16, _⟩ => ⟨S524288x4x64, .f32⟩
  | .hbm, ⟨17, _⟩ => ⟨S_, .f32⟩
  | .hbm, ⟨18, _⟩ => ⟨S524288x64, .f32⟩
  | .hbm, ⟨19, _⟩ => ⟨S_, .f32⟩
  | .hbm, ⟨20, _⟩ => ⟨S524288x64, .f32⟩
  | .hbm, ⟨21, _⟩ => ⟨S524288x64, .f32⟩
  | .hbm, ⟨22, _⟩ => ⟨S_, .i32⟩
  | .hbm, ⟨23, _⟩ => ⟨S524288, .i32⟩
  | .hbm, ⟨24, _⟩ => ⟨S524288, .i1⟩
  | .hbm, ⟨25, _⟩ => ⟨S_, .i32⟩
  | .hbm, ⟨26, _⟩ => ⟨S524288, .i32⟩
  | .hbm, ⟨27, _⟩ => ⟨S524288, .i32⟩
  | .hbm, ⟨28, _⟩ => ⟨S524288, .i32⟩
  | .hbm, ⟨29, _⟩ => ⟨S524288x1, .i32⟩
  | .hbm, ⟨30, _⟩ => ⟨S524288x64, .f32⟩
  | .hbm, ⟨31, _⟩ => ⟨S524288x128, .f32⟩
  | .hbm, ⟨32, _⟩ => ⟨S128x64, .f32⟩
  | .hbm, ⟨33, _⟩ => ⟨S524288x64, .f32⟩
  | .hbm, ⟨34, _⟩ => ⟨S1x64, .f32⟩
  | .hbm, ⟨35, _⟩ => ⟨S524288x64, .f32⟩
  | .hbm, ⟨36, _⟩ => ⟨S524288x64, .f32⟩
  | .hbm, ⟨37, _⟩ => ⟨S_, .f32⟩
  | .hbm, ⟨38, _⟩ => ⟨S524288x64, .f32⟩
  | .hbm, ⟨39, _⟩ => ⟨S524288x64, .f32⟩
  | .hbm, ⟨40, _⟩ => ⟨S64x64, .f32⟩
  | .hbm, ⟨41, _⟩ => ⟨S524288x64, .f32⟩
  | .hbm, ⟨42, _⟩ => ⟨S1x64, .f32⟩
  | .hbm, ⟨43, _⟩ => ⟨S524288x64, .f32⟩
  | .hbm, ⟨44, _⟩ => ⟨S524288x64, .f32⟩
  | _, _ => ⟨S524288x48, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  slices_S524288x48_S524288x4_0_43 : S524288x48.Slices ![0, 43] S524288x4
  bcast_S_S524288x4 : S_.BroadcastsInDim S524288x4 (![] : Fin 0 → Fin S524288x4.rank)
  bcast_S524288x4_S524288x4x1_0_1 : S524288x4.BroadcastsInDim S524288x4x1 (![0, 1] : Fin 2 → Fin S524288x4x1.rank)
  reducesTo_S524288x4x64_S524288x64_d1 : S524288x4x64.ReducesTo [1] S524288x64
  h_S_ : 0 < S_.numel
  bcast_S_S524288x64 : S_.BroadcastsInDim S524288x64 (![] : Fin 0 → Fin S524288x64.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x64_S524288x64_S524288x128_d1 : Shape.Concatenates [S524288x64, S524288x64] S524288x128 1
  transposes_S64x128_S128x64_1_0 : S64x128.Transposes [1, 0] S128x64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  transposes_S64x64_S64x64_1_0 : S64x64.Transposes [1, 0] S64x64
  gather_S66x64_S524288x4x1_S524288x4x64_2_0_n_n_0_2_164_wf : GatherDims.WF S66x64 S524288x4x1 S524288x4x64 [2] [0] [] [0] [] 2 ![1, 64]
  gather_S66x64_S524288x1_S524288x64_1_0_n_n_0_1_164_wf : GatherDims.WF S66x64 S524288x1 S524288x64 [1] [0] [] [0] [] 1 ![1, 64]
  dot_S524288x128_S128x64_S524288x64_1_0_0_1_n_n_wf : DotDims.WF S524288x128 S128x64 S524288x64 [1] [0] [0] [1] [] []
  dot_S524288x64_S64x64_S524288x64_1_0_0_1_n_n_wf : DotDims.WF S524288x64 S64x64 S524288x64 [1] [0] [0] [1] [] []

variable [Facts₀]

def gather_S66x64_S524288x4x1_S524288x4x64_2_0_n_n_0_2_164 : GatherDims S66x64 S524288x4x1 S524288x4x64 where
  offsetDims := [2]
  collapsedSliceDims := [0]
  operandBatchingDims := []
  startIndicesBatchingDims := []
  startIndexMap := [0]
  indexVectorDim := 2
  sliceSizes := ![1, 64]
  wf := gather_S66x64_S524288x4x1_S524288x4x64_2_0_n_n_0_2_164_wf
def gather_S66x64_S524288x1_S524288x64_1_0_n_n_0_1_164 : GatherDims S66x64 S524288x1 S524288x64 where
  offsetDims := [1]
  collapsedSliceDims := [0]
  operandBatchingDims := []
  startIndicesBatchingDims := []
  startIndexMap := [0]
  indexVectorDim := 1
  sliceSizes := ![1, 64]
  wf := gather_S66x64_S524288x1_S524288x64_1_0_n_n_0_1_164_wf
def dot_S524288x128_S128x64_S524288x64_1_0_0_1_n_n : DotDims S524288x128 S128x64 S524288x64 where
  lhsContracting := [1]
  rhsContracting := [0]
  lhsNonContracting := [0]
  rhsNonContracting := [1]
  lhsBatch := []
  rhsBatch := []
  wf := dot_S524288x128_S128x64_S524288x64_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf

class Facts : Prop extends Facts₀ where

variable [Facts]
-- ==== Proof.Spec.lean ====
/-
  The function both programs compute, row by row.

  A row carries five token words: the query token and the four most recent memory tokens. With E the 66×64 embedding
  table, a token word t selects from E by the indicator sum  pick E t k = Σ_{v<66} [t = v]·E(v,k), which is row t of E when
  t is one of the 66 row numbers and 0 otherwise. The memory summary is the mean of the four selected rows,
  ((p₁ + p₂) + p₃ + p₄)·¼; the hidden layer is  max(Σ_k q_k·Wa(k,j) + Σ_k mean_k·Wb(k,j) + b₁(j), 0)  for the two 64×64
  halves Wa, Wb of the first weight, and the output is  Σ_j hidden_j·W₂(j,c) + b₂(c).  Every row of the result depends on
  the token array through that row alone.
-/
import Idealize.ShloMosaic.PureOps.Ideal
import Idealize.ShloMosaic.Lib.ValueIdx

noncomputable section

namespace Cert.LruMlp

open Idealize.ShloMosaic Idealize.ShloMosaic.ValueIdx

/-- The embedding table, a 64×64 weight, a 64-entry bias, as arrays of extended reals. -/
abbrev Table := FVec Ideal ⟨2, ![66, 64]⟩ .f32
abbrev Mat := FVec Ideal ⟨2, ![64, 64]⟩ .f32
abbrev Bias := FVec Ideal ⟨1, ![64]⟩ .f32

/-- The indicator of "token word t is the row number v". -/
def hot (t : BitVec 32) (v : Fin 66) : EReal := if t = BitVec.ofNat 32 v.val then 1 else 0

/-- The indicator sum that selects a row of the table. -/
def pick (E : Table) (t : BitVec 32) (k : Fin 64) : EReal := ∑ v : Fin 66, hot t v * E (ix2 v k)

/-- The value 1/4 as the binary32 word 0x3E800000 denotes it. -/
def quarter : EReal := Ideal.ofBits .f32 0x3E800000#32

/-- The mean of the four selected memory rows. -/
def memMean (E : Table) (t1 t2 t3 t4 : BitVec 32) (k : Fin 64) : EReal :=
  (pick E t1 k + pick E t2 k + pick E t3 k + pick E t4 k) * quarter

/-- The hidden layer, cut off below at 0. -/
def hidden (E : Table) (Wa Wb : Mat) (b1 : Bias) (tq t1 t2 t3 t4 : BitVec 32) (j : Fin 64) : EReal :=
  max (∑ k : Fin 64, pick E tq k * Wa (ix2 k j) + ∑ k : Fin 64, memMean E t1 t2 t3 t4 k * Wb (ix2 k j) + b1 (ix1 j)) 0

/-- The output layer. -/
def logit (E : Table) (Wa Wb : Mat) (b1 : Bias) (W2 : Mat) (b2 : Bias) (tq t1 t2 t3 t4 : BitVec 32) (c : Fin 64) : EReal :=
  ∑ j : Fin 64, hidden E Wa Wb b1 tq t1 t2 t3 t4 j * W2 (ix2 j c) + b2 (ix1 c)

/-- The whole result for M rows of five token words each. -/
def rows (M : Nat) (tok : IVec ⟨2, ![M, 5]⟩ 32) (E : Table) (Wa Wb : Mat) (b1 : Bias) (W2 : Mat) (b2 : Bias) :
    FVec Ideal ⟨2, ![M, 64]⟩ .f32 :=
  fun i => logit E Wa Wb b1 W2 b2 (tok (ix2 (i 0) (0 : Fin 5))) (tok (ix2 (i 0) (1 : Fin 5))) (tok (ix2 (i 0) (2 : Fin 5)))
    (tok (ix2 (i 0) (3 : Fin 5))) (tok (ix2 (i 0) (4 : Fin 5))) (i 1)

theorem rows_apply (M : Nat) (tok : IVec ⟨2, ![M, 5]⟩ 32) (E : Table) (Wa Wb : Mat) (b1 : Bias) (W2 : Mat) (b2 : Bias)
    (a : Fin M) (c : Fin 64) :
    rows M tok E Wa Wb b1 W2 b2 (ix2 a c) = logit E Wa Wb b1 W2 b2 (tok (ix2 a (0 : Fin 5))) (tok (ix2 a (1 : Fin 5)))
      (tok (ix2 a (2 : Fin 5))) (tok (ix2 a (3 : Fin 5))) (tok (ix2 a (4 : Fin 5))) c := rfl

/-- A row of a block of rows is the row of the whole array it is cut from. -/
theorem rows_block (M M' : Nat) (TOK : IVec ⟨2, ![M, 5]⟩ 32) (tok : IVec ⟨2, ![M', 5]⟩ 32) (E : Table) (Wa Wb : Mat) (b1 : Bias)
    (W2 : Mat) (b2 : Bias) (a : Fin M) (a' : Fin M') (h : ∀ s : Fin 5, tok (ix2 a' s) = TOK (ix2 a s)) (c : Fin 64) :
    rows M' tok E Wa Wb b1 W2 b2 (ix2 a' c) = rows M TOK E Wa Wb b1 W2 b2 (ix2 a c) := by
  rw [rows_apply, rows_apply, h 0, h 1, h 2, h 3, h 4]

/-- The word an equality test leaves, widened to 32 bits and read as a signed integer, is the indicator. -/
theorem hot_word (t : BitVec 32) (v : Fin 66) :
    ((((IntOp.cmpi .eq t (BitVec.ofNat 32 v.val)).setWidth 32).toInt : ℝ) : EReal) = hot t v := by
  unfold hot IntOp.cmpi
  by_cases h : t = BitVec.ofNat 32 v.val
  · rw [if_pos h]; subst h; simp
  · rw [if_neg h]
    have : (t == BitVec.ofNat 32 v.val) = false := by simpa using h
    simp [this]

/-- Two row numbers with the same word are the same row. -/
theorem row_of_word {r v : Fin 66} (h : BitVec.ofNat 32 r.val = BitVec.ofNat 32 v.val) : r = v := by
  have := congrArg BitVec.toNat h
  simp only [BitVec.toNat_ofNat] at this
  have hr := r.isLt; have hv := v.isLt
  exact Fin.ext (by omega)

/-- At the word of a row number the indicator sum is that row. -/
theorem pick_row (E : Table) (t : BitVec 32) (r : Fin 66) (h : t = BitVec.ofNat 32 r.val) (k : Fin 64) :
    pick E t k = E (ix2 r k) := by
  unfold pick
  rw [Finset.sum_eq_single r]
  · unfold hot; rw [if_pos h, one_mul]
  · intro v _ hv
    unfold hot
    rw [if_neg (fun e => hv (row_of_word (h.symm.trans e)).symm), zero_mul]
  · intro hr; exact absurd (Finset.mem_univ r) hr

/-! ## Token words that name a row -/

/-- A token word names a row of the table when, read as a signed integer, it lies in 0 … 65. -/
def RowWord (t : BitVec 32) : Prop := 0 ≤ t.toInt ∧ t.toInt < 66

theorem RowWord.toInt_eq {t : BitVec 32} (h : RowWord t) : t.toInt = (t.toNat : ℤ) := by
  have h2 := BitVec.toInt_eq_toNat_cond t
  have h3 := t.isLt
  obtain ⟨h0, h1⟩ := h
  split at h2 <;> omega

theorem RowWord.toNat_lt {t : BitVec 32} (h : RowWord t) : t.toNat < 66 := by
  have := h.toInt_eq; have := h.2; omega

theorem RowWord.clamp {t : BitVec 32} (h : RowWord t) : min t.toInt.toNat 65 = t.toNat := by
  have := h.toInt_eq; have := h.toNat_lt; omega

theorem RowWord.eq_ofNat {t : BitVec 32} (_h : RowWord t) : t = BitVec.ofNat 32 t.toNat :=
  BitVec.eq_of_toNat_eq (by rw [BitVec.toNat_ofNat]; exact (Nat.mod_eq_of_lt t.isLt).symm)

/-- At a word that names a row the indicator sum is that row of the table. -/
theorem pick_rowWord (E : Table) {t : BitVec 32} (h : RowWord t) (k : Fin 64) :
    pick E t k = E (ix2 (⟨t.toNat, h.toNat_lt⟩ : Fin 66) k) :=
  pick_row E t ⟨t.toNat, h.toNat_lt⟩ h.eq_ofNat k

/-! ## The two float words of the mean -/

/-- The word 0x40800000 denotes 4. -/
theorem ofBits_four : Ideal.ofBits .f32 0x40800000#32 = ((4 : ℝ) : EReal) := by
  simp [Ideal.ofBits, Ideal.ieee, -EReal.coe_mul]; norm_num

/-- The word 0x3E800000 denotes 1/4. -/
theorem quarter_eq : quarter = ((1 / 4 : ℝ) : EReal) := by
  unfold quarter
  simp [Ideal.ofBits, Ideal.ieee, -EReal.coe_mul]; norm_num

/-- Dividing by 4 is multiplying by 1/4, on every extended real. -/
theorem div_four (x : EReal) : Ideal.div x (Ideal.ofBits .f32 0x40800000#32) = x * quarter := by
  rw [ofBits_four, quarter_eq, Ideal.div_coe (by norm_num)]

/-- A sum over 128 = 64 + 64 terms, split in the middle. -/
theorem sum_split_128 (f : Fin 128 → EReal) :
    ∑ k : Fin 128, f k = ∑ k : Fin 64, f ⟨k.val, by omega⟩ + ∑ k : Fin 64, f ⟨64 + k.val, by omega⟩ :=
  Fin.sum_univ_add (a := 64) (b := 64) f

/-! ## The result as a function of the seven arguments -/

/-- The first weight's half that meets the query part: entry (k, j) is W₁(j, k). -/
def wFirst (W1 : FVec Ideal ⟨2, ![64, 128]⟩ .f32) : Mat := fun i => W1 (ix2 (i 1) (⟨(i 0).val, by have h : (i 0).val < 64 := (i 0).isLt; omega⟩ : Fin 128))

/-- The half that meets the memory mean: entry (k, j) is W₁(j, 64 + k). -/
def wSecond (W1 : FVec Ideal ⟨2, ![64, 128]⟩ .f32) : Mat := fun i => W1 (ix2 (i 1) (⟨64 + (i 0).val, by have h : (i 0).val < 64 := (i 0).isLt; omega⟩ : Fin 128))

/-- The second weight, transposed: entry (j, c) is W₂(c, j). -/
def wOut (W2 : Mat) : Mat := fun i => W2 (ix2 (i 1) (i 0))

/-- The output for every row: the query token and the memory tokens in columns 43 … 46 of the sequence array. -/
def result (seqs : IVec ⟨2, ![524288, 48]⟩ 32) (qt : IVec ⟨1, ![524288]⟩ 32) (E : Table) (W1 : FVec Ideal ⟨2, ![64, 128]⟩ .f32)
    (b1 : Bias) (W2 : Mat) (b2 : Bias) : FVec Ideal ⟨2, ![524288, 64]⟩ .f32 :=
  fun i => logit E (wFirst W1) (wSecond W1) b1 (wOut W2) b2 (qt (ix1 (i 0))) (seqs (ix2 (i 0) (43 : Fin 48)))
    (seqs (ix2 (i 0) (44 : Fin 48))) (seqs (ix2 (i 0) (45 : Fin 48))) (seqs (ix2 (i 0) (46 : Fin 48))) (i 1)

end Cert.LruMlp

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.KernelBody.lean ====
/-
  The kernel body's stored value, read at one position, on the extended reals.

  For a block of 4096 rows the body forms, per token column, the 4096×66 matrix of indicators [token = v] (an equality
  test against the column numbers 0 … 65, widened and converted to a float) and multiplies it with the table: entry (p, k)
  of the product is the indicator sum pick E t k of the row's token. The four memory columns are added and scaled by 1/4,
  the two halves of the first weight are applied to the query part and to the mean, the bias row is added, the result
  is cut off at 0, and the second weight and bias follow. Narrowing to a 16-bit format is the identity on the extended
  reals, and a product into a zero accumulator is the plain sum of products.
-/
import proofs.«153594_j77068893160294_1_alg».proof.Proof.Gen.KernelIdeal.Skeleton
import proofs.«153594_j77068893160294_1_alg».proof.Proof.Spec
import proofs.«153594_j77068893160294_1_alg».proof.Proof.LibPlainDot
import Idealize.ShloMosaic.Lib.ValueLayout
import Idealize.ShloMosaic.PureOps.Ideal.Laws

noncomputable section

namespace Cert.LruMlp

open Idealize.ShloMosaic Idealize.ShloMosaic.ValueIdx Cert.KernelIdeal Cert.KernelIdeal.Gen

variable [Cert.KernelIdeal.Facts]

/-- The product of a 4096×66 matrix with a 66×64 one into zero, at (p, k). -/
theorem matmul66_apply {φ₁ φ₂ : FTy} (l : FVec Ideal S4096x66 φ₁) (r : FVec Ideal S66x64 φ₂) (p : Fin 4096) (k : Fin 64) :
    matmul (F := Ideal) dot_S4096x66_S66x64_S4096x64_1_0_0_1_n_n none l r (constant S4096x64 .f32 0x00000000#32) (ix2 p k)
      = ∑ v : Fin 66, l (ix2 p v) * r (ix2 v k) :=
  Cert.LibPlainDot.matmul_plain 4096 66 64 none l r (ix2 p k)

/-- The product of a 4096×64 matrix with a 64×64 one into zero, at (p, j). -/
theorem matmul64_apply {φ₁ φ₂ : FTy} (l : FVec Ideal S4096x64 φ₁) (r : FVec Ideal S64x64 φ₂) (p : Fin 4096) (j : Fin 64) :
    matmul (F := Ideal) dot_S4096x64_S64x64_S4096x64_1_0_0_1_n_n none l r (constant S4096x64 .f32 0x00000000#32) (ix2 p j)
      = ∑ k : Fin 64, l (ix2 p k) * r (ix2 k j) :=
  Cert.LibPlainDot.matmul_plain 4096 64 64 none l r (ix2 p j)

/-- The indicator matrix of a token column, at (p, v): is row p's token the row number v? -/
theorem indicator_apply (col : Vec Ideal S4096x1 .i32) (hc : S4096x1.ShapeCasts S4096x1) (hb : S4096x1.Broadcasts S4096x66)
    (hi : S4096x66.Iotas .tc 32 [1]) (h1 : 1 < 32) (p : Fin 4096) (v : Fin 66) :
    (sitofp .f32 (extui 32 (cmpi .eq (broadcastTo S4096x66 (shapeCast S4096x1 col hc) hb) (iota .tc S4096x66 32 [1] hi)) h1)
      : FVec Ideal S4096x66 .f32) (ix2 p v) = hot (col (ix2 p (0 : Fin 1))) v := by
  have hcol : broadcastTo S4096x66 (shapeCast S4096x1 col hc) hb (ix2 p v) = col (ix2 p (0 : Fin 1)) := by
    rw [shapeCast_self]
    exact broadcastTo_apply col hb (ix2 p v) (ix2 p (0 : Fin 1)) fun a => by
      match a with
      | ⟨0, _⟩ => rfl
      | ⟨1, _⟩ => rfl
  have hiota : iota .tc S4096x66 32 [1] hi (ix2 p v) = BitVec.ofNat 32 v.val := by
    show BitVec.ofNat 32 (0 * 66 + v.val) = BitVec.ofNat 32 v.val
    rw [Nat.zero_mul, Nat.zero_add]
  show ((((IntOp.cmpi .eq (broadcastTo S4096x66 (shapeCast S4096x1 col hc) hb (ix2 p v))
    (iota .tc S4096x66 32 [1] hi (ix2 p v))).setWidth 32).toInt : ℝ) : EReal) = _
  rw [hcol, hiota]
  exact hot_word _ v

/-- One token column's product with the table, at (p, k): the indicator sum of the row's token. -/
theorem lookup_apply (e : Vec Ideal S66x64 .f32) (col : Vec Ideal S4096x1 .i32) (hc : S4096x1.ShapeCasts S4096x1)
    (hb : S4096x1.Broadcasts S4096x66) (hi : S4096x66.Iotas .tc 32 [1]) (h1 : 1 < 32) (h2 : FTy.bf16.bits < FTy.f32.bits)
    (p : Fin 4096) (k : Fin 64) :
    matmul (F := Ideal) dot_S4096x66_S66x64_S4096x64_1_0_0_1_n_n none
      (truncf .bf16 (sitofp .f32 (extui 32 (cmpi .eq (broadcastTo S4096x66 (shapeCast S4096x1 col hc) hb)
        (iota .tc S4096x66 32 [1] hi)) h1) : FVec Ideal S4096x66 .f32) h2)
      (k0_pay2 e) (constant S4096x64 .f32 0x00000000#32) (ix2 p k) = pick e (col (ix2 p (0 : Fin 1))) k := by
  rw [matmul66_apply]
  unfold pick
  refine Finset.sum_congr rfl fun v _ => ?_
  rw [truncf_apply, indicator_apply]
  rfl

/-- The query part: the first token column's look-up. -/
theorem pay3_apply (e : Vec Ideal S66x64 .f32) (c0 : Vec Ideal S4096x1 .i32) (p : Fin 4096) (k : Fin 64) :
    k0_pay3 e c0 (ix2 p k) = pick e (c0 (ix2 p (0 : Fin 1))) k := by
  unfold k0_pay3
  exact lookup_apply e c0 _ _ _ _ _ p k

/-- The first three memory columns' look-ups, added. -/
theorem pay4_apply (e : Vec Ideal S66x64 .f32) (c1 c2 c3 : Vec Ideal S4096x1 .i32) (p : Fin 4096) (k : Fin 64) :
    k0_pay4 e c1 c2 c3 (ix2 p k)
      = pick e (c1 (ix2 p (0 : Fin 1))) k + pick e (c2 (ix2 p (0 : Fin 1))) k + pick e (c3 (ix2 p (0 : Fin 1))) k := by
  unfold k0_pay4
  refine (addf_apply _ _ _).trans ?_
  refine congr (congrArg HAdd.hAdd ((addf_apply _ _ _).trans ?_)) (lookup_apply e c3 _ _ _ _ _ p k)
  exact congr (congrArg HAdd.hAdd (lookup_apply e c1 _ _ _ _ _ p k)) (lookup_apply e c2 _ _ _ _ _ p k)

/-- The fourth memory column's indicator matrix. -/
theorem pay5_apply (c4 : Vec Ideal S4096x1 .i32) (p : Fin 4096) (v : Fin 66) :
    k0_pay5 c4 (ix2 p v) = hot (c4 (ix2 p (0 : Fin 1))) v := by
  unfold k0_pay5
  exact indicator_apply c4 _ _ _ _ p v

/-- A bias vector made a row and spread over the block's rows reads its own entry in every row. -/
theorem bias_apply (b : Vec Ideal S64 .f32) (hc : S64.ShapeCasts S1x64) (hb : S1x64.Broadcasts S4096x64) (p : Fin 4096) (c : Fin 64) :
    (broadcastTo S4096x64 (shapeCast S1x64 b hc) hb : FVec Ideal S4096x64 .f32) (ix2 p c) = b (ix1 c) := by
  rw [broadcastTo_1b_ab_apply, shapeCast_a_1a_apply]

/-- The stored value at (p, c), from the query part q, the sum m3 of three memory look-ups and the fourth column's
    indicator matrix i4: the two layers of the network. -/
theorem pay1_apply (e1 : FVec Ideal S66x64 .bf16) (q m3 : FVec Ideal S4096x64 .f32) (i4 : FVec Ideal S4096x66 .f32)
    (wa wb : Vec Ideal S64x64 .f32) (b1 : Vec Ideal S64 .f32) (w2 : Vec Ideal S64x64 .f32) (b2 : Vec Ideal S64 .f32)
    (p : Fin 4096) (c : Fin 64) :
    k0_pay1 e1 q m3 i4 wa wb b1 w2 b2 (ix2 p c)
      = ∑ j : Fin 64, max (∑ k : Fin 64, q (ix2 p k) * wa (ix2 k j)
            + ∑ k : Fin 64, ((m3 (ix2 p k) + ∑ v : Fin 66, i4 (ix2 p v) * e1 (ix2 v k)) * quarter) * wb (ix2 k j)
            + b1 (ix1 j)) 0 * w2 (ix2 j c) + b2 (ix1 c) := by
  unfold k0_pay1
  refine (addf_apply _ _ _).trans ?_
  refine congr (congrArg HAdd.hAdd ((matmul64_apply _ _ p c).trans ?_)) (bias_apply b2 _ _ p c)
  refine Finset.sum_congr rfl fun j _ => ?_
  refine congr (congrArg HMul.hMul ?_) ?_
  · rw [truncf_apply, maximumf_apply]
    refine congr (congrArg max ?_) ?_
    · refine (addf_apply _ _ _).trans (congr (congrArg HAdd.hAdd ((addf_apply _ _ _).trans
        (congr (congrArg HAdd.hAdd ?_) ?_))) (bias_apply b1 _ _ p j))
      · refine (matmul64_apply _ _ p j).trans (Finset.sum_congr rfl fun k _ => ?_)
        rw [truncf_apply, truncf_apply, shapeCast_self]
      · refine (matmul64_apply _ _ p j).trans (Finset.sum_congr rfl fun k _ => ?_)
        rw [truncf_apply, truncf_apply, shapeCast_self, mulf_apply, addf_apply, matmul66_apply, broadcast_apply]
        rfl
    · exact Ideal.ofBits_zero_f32
  · rw [truncf_apply, shapeCast_self]

/-- The stored value at (p, c) from the block's five token columns: the row's output. -/
theorem body_apply (e : Vec Ideal S66x64 .f32) (c0 c1 c2 c3 c4 : Vec Ideal S4096x1 .i32) (wa wb : Vec Ideal S64x64 .f32)
    (b1 : Vec Ideal S64 .f32) (w2 : Vec Ideal S64x64 .f32) (b2 : Vec Ideal S64 .f32) (p : Fin 4096) (c : Fin 64) :
    k0_pay1 (k0_pay2 e) (k0_pay3 e c0) (k0_pay4 e c1 c2 c3) (k0_pay5 c4) wa wb b1 w2 b2 (ix2 p c)
      = logit e wa wb b1 w2 b2 (c0 (ix2 p (0 : Fin 1))) (c1 (ix2 p (0 : Fin 1))) (c2 (ix2 p (0 : Fin 1)))
          (c3 (ix2 p (0 : Fin 1))) (c4 (ix2 p (0 : Fin 1))) c := by
  rw [pay1_apply]
  unfold logit hidden memMean
  simp only [pay3_apply, pay4_apply, pay5_apply]
  rfl

end Cert.LruMlp

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.KernelValue.lean ====
/-
  The kernel's result array as one function of the arrays the region finds.

  The grid has 128 points; point t stages rows 4096·t … 4096·t + 4095 of the [524288, 5] token array and of the output, and
  the whole of the table, the weights and the biases. The body's value for a row depends on the token array through that
  row alone, so what point t writes back is block t of the row function of the WHOLE token array; the 128 blocks tile the
  output, so the output array ends as that function.
-/
import proofs.«153594_j77068893160294_1_alg».proof.Proof.Gen.KernelIdeal.Value
import proofs.«153594_j77068893160294_1_alg».proof.Proof.KernelBody
import proofs.«153594_j77068893160294_1_alg».proof.Proof.LibHostBroadcast

noncomputable section

namespace Cert.LruMlp

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- A load of column k of the token block, at row p, reads the block at (p, k). -/
theorem column_load (x0 : Vec Ideal S4096x5 .i32) (k : Nat) (hk : k < 5)
    (inb : ∀ a, (![0, k] : Fin 2 → Nat) a + S4096x1.size a ≤ S4096x5.size a) (p : Fin 4096) :
    View.ld x0 (Rect.unit (s := S4096x5) ![0, k] S4096x1.size inb) (ix2 p (0 : Fin 1)) = x0 (ix2 p (⟨k, hk⟩ : Fin 5)) := by
  show x0 _ = x0 _
  refine congrArg x0 (funext fun a => Fin.ext ?_)
  match a with
  | ⟨0, _⟩ => show 0 + 1 * p.val = p.val; omega
  | ⟨1, _⟩ => show k + 1 * 0 = k; omega

/-- What the body leaves in the output's staging buffer is the row function of the staged blocks. -/
theorem staged_eq (x0 : Vec Ideal S4096x5 .i32) (x1 : Vec Ideal S66x64 .f32) (x2 x3 : Vec Ideal S64x64 .f32) (x4 : Vec Ideal S64 .f32)
    (x5 : Vec Ideal S64x64 .f32) (x6 : Vec Ideal S64 .f32) :
    out0_7 x0 x1 x2 x3 x4 x5 x6 = rows 4096 x0 x1 x2 x3 x4 x5 x6 := by
  unfold out0_7
  rw [View.canon_unit_zero zeros2]
  simp only [View.ld_unit_zero (S := S66x64) zeros2, View.ld_unit_zero (S := S64x64) zeros2, View.ld_unit_zero (S := S64) zeros1]
  funext i
  obtain ⟨p, c, rfl⟩ : ∃ (p : Fin 4096) (c : Fin 64), i = ix2 p c := ⟨i 0, i 1, eq_ix2 i⟩
  rw [body_apply, rows_apply, column_load x0 0 (by decide), column_load x0 1 (by decide), column_load x0 2 (by decide),
    column_load x0 3 (by decide), column_load x0 4 (by decide)]
  rfl

/-! ## The grid's index maps -/

/-- The printed index maps, decided over the 128 points: the token window and the output window are at the same block
    number, at most 127, on the row axis and at block 0 on the column axis; every other window stays at block 0. -/
theorem index_facts : ∀ t : Fin cfg0.N,
    win0_0.index t (0 : Fin 2) = win0_7.index t (0 : Fin 2) ∧ win0_0.index t (1 : Fin 2) = 0
    ∧ win0_7.index t (1 : Fin 2) = 0 ∧ win0_7.index t (0 : Fin 2) ≤ 127
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- Every block number 0 … 127 of the output is some point's. -/
theorem index_onto : ∀ q : Fin 128, ∃ t : Fin cfg0.N, win0_7.index t = ![q.val, 0] :=
  (by decide +kernel : ∀ q : Fin 128, ∃ t : Fin grid0.N, win0_7.index t = ![q.val, 0])

/-! ## The staged blocks -/

/-- The staged token block at a point is the 4096 rows of the token array that start at 4096 times its block number. -/
theorem tok_block (c : Dev nD) (t : Fin cfg0.N) (p : Fin 4096) (s : Fin 5) (R : Fin 524288)
    (hR : R.val = win0_7.index t (0 : Fin 2) * 4096 + p.val) :
    (iblk m c 0 t : Vec Ideal S4096x5 .i32) (ix2 p s) = V m c main_v2 (ix2 R s) := by
  obtain ⟨e0, e1, -⟩ := index_facts t
  show V m c main_v2 (((cfg0.win 0).blk t).view.emb (ix2 p s)) = V m c main_v2 (ix2 R s)
  refine congrArg (V m c main_v2) (funext fun a => Fin.ext ?_)
  match a with
  | ⟨0, _⟩ => show win0_0.index t (0 : Fin 2) * 4096 + 1 * p.val = R.val; omega
  | ⟨1, _⟩ => show win0_0.index t (1 : Fin 2) * 5 + 1 * s.val = s.val; omega

/-- Window 1 stages its whole array at every point. -/
theorem whole_block1 (c : Dev nD) (t : Fin cfg0.N) : (iblk m c 1 t : Vec Ideal S66x64 .f32) = V m c main_arg2 := by
  obtain ⟨-, -, -, -, f10, f11, f20, f21, f30, f31, f40, f50, f51, f60⟩ := index_facts t
  funext y
  show V m c main_arg2 (((cfg0.win 1).blk t).view.emb y) = V m c main_arg2 y
  refine congrArg (V m c main_arg2) (funext fun a => Fin.ext ?_)
  match a with
  | ⟨0, _⟩ => show win0_1.index t (0 : Fin 2) * 66 + 1 * (y 0).val = (y 0).val; omega
  | ⟨1, _⟩ => show win0_1.index t (1 : Fin 2) * 64 + 1 * (y 1).val = (y 1).val; omega

/-- Window 2 stages its whole array at every point. -/
theorem whole_block2 (c : Dev nD) (t : Fin cfg0.N) : (iblk m c 2 t : Vec Ideal S64x64 .f32) = V m c main_v4 := by
  obtain ⟨-, -, -, -, f10, f11, f20, f21, f30, f31, f40, f50, f51, f60⟩ := index_facts t
  funext y
  show V m c main_v4 (((cfg0.win 2).blk t).view.emb y) = V m c main_v4 y
  refine congrArg (V m c main_v4) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Window 3 stages its whole array at every point. -/
theorem whole_block3 (c : Dev nD) (t : Fin cfg0.N) : (iblk m c 3 t : Vec Ideal S64x64 .f32) = V m c main_v5 := by
  obtain ⟨-, -, -, -, f10, f11, f20, f21, f30, f31, f40, f50, f51, f60⟩ := index_facts t
  funext y
  show V m c main_v5 (((cfg0.win 3).blk t).view.emb y) = V m c main_v5 y
  refine congrArg (V m c main_v5) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Window 4 stages its whole array at every point. -/
theorem whole_block4 (c : Dev nD) (t : Fin cfg0.N) : (iblk m c 4 t : Vec Ideal S64 .f32) = V m c main_arg4 := by
  obtain ⟨-, -, -, -, f10, f11, f20, f21, f30, f31, f40, f50, f51, f60⟩ := index_facts t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 64 + 1 * (y 0).val = (y 0).val; omega

/-- Window 5 stages its whole array at every point. -/
theorem whole_block5 (c : Dev nD) (t : Fin cfg0.N) : (iblk m c 5 t : Vec Ideal S64x64 .f32) = V m c main_v6 := by
  obtain ⟨-, -, -, -, f10, f11, f20, f21, f30, f31, f40, f50, f51, f60⟩ := index_facts t
  funext y
  show V m c main_v6 (((cfg0.win 5).blk t).view.emb y) = V m c main_v6 y
  refine congrArg (V m c main_v6) (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- Window 6 stages its whole array at every point. -/
theorem whole_block6 (c : Dev nD) (t : Fin cfg0.N) : (iblk m c 6 t : Vec Ideal S64 .f32) = V m c main_arg6 := by
  obtain ⟨-, -, -, -, f10, f11, f20, f21, f30, f31, f40, f50, f51, f60⟩ := index_facts t
  funext y
  show V m c main_arg6 (((cfg0.win 6).blk t).view.emb y) = V m c main_arg6 y
  refine congrArg (V m c main_arg6) (funext fun a => Fin.ext ?_)
  match a with
  | ⟨0, _⟩ => show win0_6.index t (0 : Fin 1) * 64 + 1 * (y 0).val = (y 0).val; omega

/-! ## From blocks to the array -/

/-- What point t writes back is block t of the row function of the whole arrays the region finds. -/
theorem flushed_eq (c : Dev nD) (t : Fin cfg0.N) :
    (dats m 0 c).flushed 7 t = ((cfg0.win 7).blk t).view.read (Elt Ideal)
      (rows 524288 (V m c main_v2) (V m c main_arg2) (V m c main_v4) (V m c main_v5) (V m c main_arg4) (V m c main_v6)
        (V m c main_arg6)) := by
  show (cfg0.win 7).cut (grid0.coords t) ((dats m 0 c).after 7 t) = _
  rw [after0_7, staged_eq, whole_block1 m c t, whole_block2 m c t, whole_block3 m c t, whole_block4 m c t, whole_block5 m c t,
    whole_block6 m c t]
  obtain ⟨e0, e1, e2, e3, -⟩ := index_facts t
  funext j
  obtain ⟨p, cc, rfl⟩ : ∃ (p : Fin 4096) (cc : Fin 64), j = ix2 p cc := ⟨j 0, j 1, eq_ix2 j⟩
  have hR : win0_7.index t (0 : Fin 2) * 4096 + p.val < 524288 := by have := p.isLt; omega
  show rows 4096 (iblk m c 0 t) (V m c main_arg2) (V m c main_v4) (V m c main_v5) (V m c main_arg4) (V m c main_v6)
      (V m c main_arg6) (ix2 p cc)
    = rows 524288 (V m c main_v2) (V m c main_arg2) (V m c main_v4) (V m c main_v5) (V m c main_arg4) (V m c main_v6)
      (V m c main_arg6) (((cfg0.win 7).blk t).view.emb (ix2 p cc))
  have hemb : ((cfg0.win 7).blk t).view.emb (ix2 p cc)
      = ix2 (⟨win0_7.index t (0 : Fin 2) * 4096 + p.val, hR⟩ : Fin 524288) cc := by
    funext a; apply Fin.ext
    match a with
    | ⟨0, _⟩ => show win0_7.index t (0 : Fin 2) * 4096 + 1 * p.val = win0_7.index t (0 : Fin 2) * 4096 + p.val; omega
    | ⟨1, _⟩ => show win0_7.index t (1 : Fin 2) * 64 + 1 * cc.val = cc.val; omega
  rw [hemb]
  exact rows_block 524288 4096 (V m c main_v2) (iblk m c 0 t) _ _ _ _ _ _ ⟨_, hR⟩ p
    (fun s => tok_block m c t p s ⟨_, hR⟩ rfl) cc

/-- An index of the output array is in point t's block iff each coordinate is in the block's range. -/
theorem mem_block (t : Fin cfg0.N) (i : S524288x64.Idx) :
    i ∈ ((cfg0.win 7).blk t).view.set ↔ ∀ a : Fin 2, win0_7.index t a * S4096x64.size a ≤ (i a).val
      ∧ (i a).val < win0_7.index t a * S4096x64.size a + S4096x64.size a := by
  show i ∈ ((View.whole main_v7).slice (win0_7.rect t)).set ↔ _
  rw [View.set_slice_whole, Rect.mem_set_unit]
  exact Iff.rfl

/-- Row r of the output lies in the block of the point with block number r / 4096. -/
theorem covered (i : S524288x64.Idx) :
    ∃ t : Fin cfg0.N, (cfg0.win 7).flush t = true ∧ i ∈ ((cfg0.win 7).blk t).view.set := by
  have hi0 : (i 0).val < 524288 := (i 0).isLt
  have hi1 : (i 1).val < 64 := (i 1).isLt
  obtain ⟨t, ht⟩ := index_onto ⟨(i 0).val / 4096, by omega⟩
  have q0 : win0_7.index t (0 : Fin 2) = (i 0).val / 4096 := congrFun ht 0
  have q1 : win0_7.index t (1 : Fin 2) = 0 := congrFun ht 1
  refine ⟨t, flush0_7 t, ?_⟩
  rw [mem_block]
  intro a
  match a with
  | ⟨0, _⟩ =>
    show win0_7.index t (0 : Fin 2) * 4096 ≤ (i 0).val ∧ (i 0).val < win0_7.index t (0 : Fin 2) * 4096 + 4096
    omega
  | ⟨1, _⟩ =>
    show win0_7.index t (1 : Fin 2) * 64 ≤ (i 1).val ∧ (i 1).val < win0_7.index t (1 : Fin 2) * 64 + 64
    omega

/-- The output array after the run. -/
theorem final (c : Dev nD) :
    (dats m 0 c).arrAt 7 cfg0.N = rows 524288 (V m c main_v2) (V m c main_arg2) (V m c main_v4) (V m c main_v5)
      (V m c main_arg4) (V m c main_v6) (V m c main_arg6) :=
  (dats m 0 c).arrAt_eq_of_cover 7 _ (fun t _ => flushed_eq m c t) covered

/-! ## The arrays the host operations before the region leave -/

/-- Column 0 of the token array is the query-token array. -/
theorem tok_query (c : Dev nD) (r : Fin 524288) :
    (V m c main_v2 : S524288x5.Idx → BitVec 32) (ix2 r (0 : Fin 5))
      = (m ((c : Thread nD τ).loc main_arg1) : S524288.Idx → BitVec 32) (ix1 r) := by
  dsimp only [Gen.V, Gen.hostOps0]
  after_results
  refine (concatenate_pair_apply_left (t := S524288x5) (s₁ := S524288x1) (s₂ := S524288x4) (1 : Fin 2) _ _ _ (ix2 r (0 : Fin 5)) rfl (ix2 r (0 : Fin 1)) (fun b => by
    match b with
    | ⟨0, _⟩ => rfl
    | ⟨1, _⟩ => rfl)).trans ?_
  exact Cert.LibHostBroadcast.vec_to_col _ _ r 0

/-- Columns 1 … 4 of the token array are columns 43 … 46 of the sequence array. -/
theorem tok_mem (c : Dev nD) (r : Fin 524288) (s : Fin 4) (k5 : Fin 5) (k48 : Fin 48) (h5 : k5.val = 1 + s.val)
    (h48 : k48.val = 43 + s.val) :
    (V m c main_v2 : S524288x5.Idx → BitVec 32) (ix2 r k5)
      = (m ((c : Thread nD τ).loc main_arg0) : S524288x48.Idx → BitVec 32) (ix2 r k48) := by
  dsimp only [Gen.V, Gen.hostOps0]
  after_results
  refine (concatenate_pair_apply_right (t := S524288x5) (s₁ := S524288x1) (s₂ := S524288x4) (1 : Fin 2) _ _ _ (ix2 r k5) rfl rfl (ix2 r s) (fun b => by
    match b with
    | ⟨0, _⟩ => exact fun _ => rfl
    | ⟨1, _⟩ => exact fun h => absurd (Fin.ext rfl) h) (by show s.val + 1 = k5.val; omega)).trans ?_
  exact slice2_axis1_apply 43 _ _ r s k48 h48

/-- The upper half of the transposed first weight. -/
theorem w_first (c : Dev nD) :
    (V m c main_v4 : S64x64.Idx → EReal) = wFirst (m ((c : Thread nD τ).loc main_arg3)) := by
  dsimp only [Gen.V, Gen.hostOps0]
  after_results
  funext i
  obtain ⟨k, j, rfl⟩ : ∃ (k : Fin 64) (j : Fin 64), i = ix2 k j := ⟨i 0, i 1, eq_ix2 i⟩
  refine (slice2_axis0_apply 0 _ _ k j (⟨k.val, by omega⟩ : Fin 128) (by show k.val = 0 + k.val; omega)).trans ?_
  exact transpose_ix2_apply _ _ _ j

/-- The lower half of the transposed first weight. -/
theorem w_second (c : Dev nD) :
    (V m c main_v5 : S64x64.Idx → EReal) = wSecond (m ((c : Thread nD τ).loc main_arg3)) := by
  dsimp only [Gen.V, Gen.hostOps0]
  after_results
  funext i
  obtain ⟨k, j, rfl⟩ : ∃ (k : Fin 64) (j : Fin 64), i = ix2 k j := ⟨i 0, i 1, eq_ix2 i⟩
  refine (slice2_axis0_apply 64 _ _ k j (⟨64 + k.val, by omega⟩ : Fin 128) rfl).trans ?_
  exact transpose_ix2_apply _ _ _ j

/-- The transposed second weight. -/
theorem w_out (c : Dev nD) :
    (V m c main_v6 : S64x64.Idx → EReal) = wOut (m ((c : Thread nD τ).loc main_arg5)) := by
  dsimp only [Gen.V, Gen.hostOps0]
  after_results
  funext i
  obtain ⟨j, cc, rfl⟩ : ∃ (j : Fin 64) (cc : Fin 64), i = ix2 j cc := ⟨i 0, i 1, eq_ix2 i⟩
  exact transpose_ix2_apply _ _ j cc

/-- The output array after the run, as the result function of the seven arguments. -/
theorem final_result (c : Dev nD) :
    (dats m 0 c).arrAt 7 cfg0.N = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [final, w_first m c, w_second m c, w_out m c, V_main_arg2, V_main_arg4, V_main_arg6]
  funext i
  obtain ⟨r, cc, rfl⟩ : ∃ (r : Fin 524288) (cc : Fin 64), i = ix2 r cc := ⟨i 0, i 1, eq_ix2 i⟩
  rw [rows_apply, tok_query m c r, tok_mem m c r 0 1 43 rfl rfl, tok_mem m c r 1 2 44 rfl rfl, tok_mem m c r 2 3 45 rfl rfl,
    tok_mem m c r 3 4 46 rfl rfl]
  rfl

/-- The kernel's run: the output array ends at the result function of the arguments, which end unchanged. -/
theorem kernel_run : θ_run defs (onTc (τ := τ) (main (F := Ideal))) ⟨m, fun _ => 0, ρ⟩ fun r => ∀ c : Dev nD,
      r.2.mem ((c : Thread nD τ).loc main_v7) = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_result m c), (h c).2⟩)
    (Cert.KernelIdeal.Value.run_blocks m ρ)

end Cert.LruMlp

end
-- ==== Proof.RefGather.lean ====
/-
  The reference's two row look-ups read at an index.

  `embed[idx]` takes, for every entry of an integer array, the row of the 66×64 table that the entry names: the result at
  (…, k) is the table at (row, k), where the row is the entry read as a signed integer and clamped into 0 … 65 (the
  clamping is the look-up's own rule for an entry outside the table). One statement for the look-up by the four memory
  tokens (a [B, 4] array of entries) and one for the look-up by the query token (a [B] array).
-/
import proofs.«153594_j77068893160294_1_alg».proof.ReferenceIdeal
import Idealize.ShloMosaic.Lib.ValueIdx

noncomputable section

namespace Cert.LruMlp

open Idealize.ShloMosaic Idealize.ShloMosaic.ValueIdx Cert.ReferenceIdeal

variable [Cert.ReferenceIdeal.Facts] {α : Type}

/-- The look-up by the memory tokens: entry (r, s) names the row read at (r, s, k). -/
theorem gather_mem_apply (x : S66x64.Idx → α) (idx : IVec S524288x4x1 32) (r : Fin 524288) (s : Fin 4) (k : Fin 64) :
    Host.gather gather_S66x64_S524288x4x1_S524288x4x64_2_0_n_n_0_2_164 x idx (ix3 r s k)
      = x (ix2 ⟨min (idx (ix3 r s (0 : Fin 1))).toInt.toNat 65, by omega⟩ k) := by
  unfold Host.gather
  refine congrArg x (funext fun a => Fin.ext ?_)
  match a with
  | ⟨0, _⟩ =>
    show gather_S66x64_S524288x4x1_S524288x4x64_2_0_n_n_0_2_164.start (ix3 r s k) idx 0 + gather_S66x64_S524288x4x1_S524288x4x64_2_0_n_n_0_2_164.batchCoord (ix3 r s k) 0 + gather_S66x64_S524288x4x1_S524288x4x64_2_0_n_n_0_2_164.offCoord (ix3 r s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S66x64_S524288x4x1_S524288x4x64_2_0_n_n_0_2_164.startIndexMap from List.mem_singleton.mpr rfl)]
    have hsi : gather_S66x64_S524288x4x1_S524288x4x64_2_0_n_n_0_2_164.siIdx (ix3 r s k)
        ⟨List.idxOf (0 : Fin 2) gather_S66x64_S524288x4x1_S524288x4x64_2_0_n_n_0_2_164.startIndexMap, List.idxOf_lt_length_iff.2 (List.mem_singleton.mpr rfl)⟩ = ix3 r s (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S66x64_S524288x4x1_S524288x4x64_2_0_n_n_0_2_164.start (ix3 r s k) idx 1 + gather_S66x64_S524288x4x1_S524288x4x64_2_0_n_n_0_2_164.batchCoord (ix3 r s k) 1 + gather_S66x64_S524288x4x1_S524288x4x64_2_0_n_n_0_2_164.offCoord (ix3 r s k) 1 = _
    rw [GatherDims.batchCoord_eq_zero _ _ _ List.not_mem_nil]
    have hst : gather_S66x64_S524288x4x1_S524288x4x64_2_0_n_n_0_2_164.start (ix3 r s k) idx 1 = 0 := by
      unfold GatherDims.start
      have h1 : ¬ (1 : Fin 2) ∈ gather_S66x64_S524288x4x1_S524288x4x64_2_0_n_n_0_2_164.startIndexMap := by
        show ¬ (1 : Fin 2) ∈ ([0] : List (Fin 2)); decide
      rw [dif_neg h1]
    have hoff : gather_S66x64_S524288x4x1_S524288x4x64_2_0_n_n_0_2_164.offCoord (ix3 r s k) 1 = k.val := by
      unfold GatherDims.offCoord
      have h1 : (1 : Fin 2) ∈ gather_S66x64_S524288x4x1_S524288x4x64_2_0_n_n_0_2_164.sKept :=
        (GatherDims.mem_sKept _ _).mpr ⟨(show ¬ (1 : Fin 2) ∈ ([0] : List (Fin 2)) by decide), List.not_mem_nil⟩
      rw [dif_pos h1]
      rfl
    rw [hst, hoff]
    show 0 + 0 + k.val = k.val
    omega

/-- The look-up by the query token: entry r names the row read at (r, k). -/
theorem gather_query_apply (x : S66x64.Idx → α) (idx : IVec S524288x1 32) (r : Fin 524288) (k : Fin 64) :
    Host.gather gather_S66x64_S524288x1_S524288x64_1_0_n_n_0_1_164 x idx (ix2 r k)
      = x (ix2 ⟨min (idx (ix2 r (0 : Fin 1))).toInt.toNat 65, by omega⟩ k) := by
  unfold Host.gather
  refine congrArg x (funext fun a => Fin.ext ?_)
  match a with
  | ⟨0, _⟩ =>
    show gather_S66x64_S524288x1_S524288x64_1_0_n_n_0_1_164.start (ix2 r k) idx 0 + gather_S66x64_S524288x1_S524288x64_1_0_n_n_0_1_164.batchCoord (ix2 r k) 0 + gather_S66x64_S524288x1_S524288x64_1_0_n_n_0_1_164.offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S66x64_S524288x1_S524288x64_1_0_n_n_0_1_164.startIndexMap from List.mem_singleton.mpr rfl)]
    have hsi : gather_S66x64_S524288x1_S524288x64_1_0_n_n_0_1_164.siIdx (ix2 r k)
        ⟨List.idxOf (0 : Fin 2) gather_S66x64_S524288x1_S524288x64_1_0_n_n_0_1_164.startIndexMap, List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S66x64_S524288x1_S524288x64_1_0_n_n_0_1_164.start (ix2 r k) idx 1 + gather_S66x64_S524288x1_S524288x64_1_0_n_n_0_1_164.batchCoord (ix2 r k) 1 + gather_S66x64_S524288x1_S524288x64_1_0_n_n_0_1_164.offCoord (ix2 r k) 1 = _
    rw [GatherDims.batchCoord_eq_zero _ _ _ List.not_mem_nil]
    have hst : gather_S66x64_S524288x1_S524288x64_1_0_n_n_0_1_164.start (ix2 r k) idx 1 = 0 := by
      unfold GatherDims.start
      have h1 : ¬ (1 : Fin 2) ∈ gather_S66x64_S524288x1_S524288x64_1_0_n_n_0_1_164.startIndexMap := by
        show ¬ (1 : Fin 2) ∈ ([0] : List (Fin 2)); decide
      rw [dif_neg h1]
    have hoff : gather_S66x64_S524288x1_S524288x64_1_0_n_n_0_1_164.offCoord (ix2 r k) 1 = k.val := by
      unfold GatherDims.offCoord
      have h1 : (1 : Fin 2) ∈ gather_S66x64_S524288x1_S524288x64_1_0_n_n_0_1_164.sKept :=
        (GatherDims.mem_sKept _ _).mpr ⟨(show ¬ (1 : Fin 2) ∈ ([0] : List (Fin 2)) by decide), List.not_mem_nil⟩
      rw [dif_pos h1]
      rfl
    rw [hst, hoff]
    show 0 + 0 + k.val = k.val
    omega

end Cert.LruMlp

end
-- ==== Proof.LibConcatDot.lean ====
/-
  A product against two arrays laid side by side is the sum of two products.

  Let A and B be M×L arrays, [A | B] their concatenation along axis 1 (an M×K array with K = L + L), and W a K×N weight
  whose upper half W₀ = rows 0 … L−1 and lower half W₁ = rows L … K−1 are taken as unit-stride slices. Then at every
  output index
      Σ_{k<K} [A | B](a,k) · W(k,c) = Σ_{k<L} A(a,k) · W₀(k,c) + Σ_{k<L} B(a,k) · W₁(k,c) :
  the sum over k < L + L splits at L, the first L columns of the concatenation are A's, the last L are B's, and row k of a
  half is row k (resp. L + k) of W. It is a regrouping of one finite sum, valid on the extended reals as on any
  commutative additive monoid with a product; nothing has to be finite.
-/
import Idealize.ShloMosaic.PureOps.Ideal.Laws
import Idealize.ShloMosaic.Lib.ValueIdx
import Idealize.ShloMosaic.Lib.Pipeline.Value

noncomputable section

namespace Cert.LibConcatDot

open Idealize.ShloMosaic Idealize.ShloMosaic.ValueIdx

variable (M L N K : Nat) {φ : FTy}

/-- Column k < L of the concatenation is column k of the first piece. -/
theorem concat_left (hK : K = L + L) (A B : (⟨2, ![M, L]⟩ : Shape).Idx → EReal)
    (hcat : Shape.Concatenates [(⟨2, ![M, L]⟩ : Shape), ⟨2, ![M, L]⟩] ⟨2, ![M, K]⟩ (1 : Fin 2)) (a : Fin M) (k : Fin L) (k' : Fin K)
    (hk : k'.val = k.val) :
    concatenate ⟨2, ![M, K]⟩ (1 : Fin 2) [⟨⟨2, ![M, L]⟩, A⟩, ⟨⟨2, ![M, L]⟩, B⟩] hcat (ix2 a k') = A (ix2 a k) :=
  concatenate_pair_apply_left (1 : Fin 2) A B hcat (ix2 a k') rfl (ix2 a k) fun b => by
    match b with
    | ⟨0, _⟩ => rfl
    | ⟨1, _⟩ => exact hk.symm

/-- Column L + k of the concatenation is column k of the second piece. -/
theorem concat_right (hK : K = L + L) (A B : (⟨2, ![M, L]⟩ : Shape).Idx → EReal)
    (hcat : Shape.Concatenates [(⟨2, ![M, L]⟩ : Shape), ⟨2, ![M, L]⟩] ⟨2, ![M, K]⟩ (1 : Fin 2)) (a : Fin M) (k : Fin L) (k' : Fin K)
    (hk : k'.val = L + k.val) :
    concatenate ⟨2, ![M, K]⟩ (1 : Fin 2) [⟨⟨2, ![M, L]⟩, A⟩, ⟨⟨2, ![M, L]⟩, B⟩] hcat (ix2 a k') = B (ix2 a k) :=
  concatenate_pair_apply_right (1 : Fin 2) A B hcat (ix2 a k') rfl rfl (ix2 a k)
    (fun b => by
      match b with
      | ⟨0, _⟩ => exact fun _ => rfl
      | ⟨1, _⟩ => exact fun h => absurd (Fin.ext rfl) h)
    (by show k.val + L = k'.val; omega)

/-- Row k of the upper half of the weight is row k of the weight. -/
theorem slice_upper (W : (⟨2, ![K, N]⟩ : Shape).Idx → EReal) (h0 : (⟨2, ![K, N]⟩ : Shape).Slices ![0, 0] ⟨2, ![L, N]⟩)
    (k : Fin L) (k' : Fin K) (hk : k'.val = k.val) (c : Fin N) :
    extractStridedSlice ⟨2, ![L, N]⟩ ![0, 0] W h0 (ix2 k c) = W (ix2 k' c) :=
  extractStridedSlice_apply ![0, 0] W h0 (ix2 k c) (ix2 k' c) fun ax => by
    match ax with
    | ⟨0, _⟩ => show k'.val = 0 + k.val; omega
    | ⟨1, _⟩ => show c.val = 0 + c.val; omega

/-- Row k of the lower half of the weight is row L + k of the weight. -/
theorem slice_lower (W : (⟨2, ![K, N]⟩ : Shape).Idx → EReal) (h1 : (⟨2, ![K, N]⟩ : Shape).Slices ![L, 0] ⟨2, ![L, N]⟩)
    (k : Fin L) (k' : Fin K) (hk : k'.val = L + k.val) (c : Fin N) :
    extractStridedSlice ⟨2, ![L, N]⟩ ![L, 0] W h1 (ix2 k c) = W (ix2 k' c) :=
  extractStridedSlice_apply ![L, 0] W h1 (ix2 k c) (ix2 k' c) fun ax => by
    match ax with
    | ⟨0, _⟩ => show k'.val = L + k.val; exact hk
    | ⟨1, _⟩ => show c.val = 0 + c.val; omega

/-- The sum over the K = L + L columns, split at L. -/
theorem sum_concat_split (hK : K = L + L) (A B : (⟨2, ![M, L]⟩ : Shape).Idx → EReal) (W : (⟨2, ![K, N]⟩ : Shape).Idx → EReal)
    (hcat : Shape.Concatenates [(⟨2, ![M, L]⟩ : Shape), ⟨2, ![M, L]⟩] ⟨2, ![M, K]⟩ (1 : Fin 2))
    (h0 : (⟨2, ![K, N]⟩ : Shape).Slices ![0, 0] ⟨2, ![L, N]⟩) (h1 : (⟨2, ![K, N]⟩ : Shape).Slices ![L, 0] ⟨2, ![L, N]⟩)
    (a : Fin M) (c : Fin N) :
    ∑ k : Fin K, concatenate ⟨2, ![M, K]⟩ (1 : Fin 2) [⟨⟨2, ![M, L]⟩, A⟩, ⟨⟨2, ![M, L]⟩, B⟩] hcat (ix2 a k) * W (ix2 k c)
      = ∑ k : Fin L, A (ix2 a k) * extractStridedSlice ⟨2, ![L, N]⟩ ![0, 0] W h0 (ix2 k c)
        + ∑ k : Fin L, B (ix2 a k) * extractStridedSlice ⟨2, ![L, N]⟩ ![L, 0] W h1 (ix2 k c) := by
  subst hK
  rw [Fin.sum_univ_add]
  refine congr (congrArg HAdd.hAdd (Finset.sum_congr rfl fun k _ => ?_)) (Finset.sum_congr rfl fun k _ => ?_)
  · rw [concat_left M L (L + L) rfl A B hcat a k (Fin.castAdd L k) rfl,
      slice_upper L N (L + L) W h0 k (Fin.castAdd L k) rfl c]
  · rw [concat_right M L (L + L) rfl A B hcat a k (Fin.natAdd L k) rfl,
      slice_lower L N (L + L) W h1 k (Fin.natAdd L k) rfl c]

end Cert.LibConcatDot

end
-- ==== Proof.RefValue.lean ====
/-
  The reference's result, read at one position, under "every selecting token names a row".

  The reference looks rows of the table up by token: a negative token is first moved up by 66 and the look-up clamps what it
  is given into 0 … 65; for a token that names a row neither does anything, and the row looked up is the indicator sum
  pick E t. The memory summary is the sum of the four looked-up rows (starting from 0) divided by 4, which is the product
  with 1/4. The product of the concatenation [query part | mean] with the transposed first weight splits at column 64 into
  the two products with the weight's halves; bias, cut-off at 0, second weight and bias follow as in the kernel.
-/
import proofs.«153594_j77068893160294_1_alg».proof.Proof.Gen.ReferenceIdeal.Read
import proofs.«153594_j77068893160294_1_alg».proof.Proof.Spec
import proofs.«153594_j77068893160294_1_alg».proof.Proof.RefGather
import proofs.«153594_j77068893160294_1_alg».proof.Proof.LibConcatDot
import Idealize.ShloMosaic.Lib.ValueLayout
import Idealize.ShloMosaic.Lib.Affine

noncomputable section

namespace Cert.LruMlp

open Idealize.ShloMosaic Idealize.ShloMosaic.ValueIdx Cert.ReferenceIdeal Cert.ReferenceIdeal.Read

/-- Moving a negative token up by 66 leaves a token that names a row as it is. -/
theorem wrap_rowWord {t : BitVec 32} (h : RowWord t) :
    Scalar.select (IntOp.cmpi .slt t 0#32) (IntOp.addi t 66#32) t = t := by
  have z : (0#32 : BitVec 32).toInt = 0 := by decide
  have e : IntOp.cmpi .slt t 0#32 = 0#1 :=
    eq_zero_of_ne_one (fun e => by have g := IntOp.cmpi_slt.1 e; have := h.1; rw [z] at g; omega)
  rw [e, select_zero]

/-- The query part: the table's row of the query token. -/
theorem query_row (x1 : IVec S524288 32) (x2 : FVec Ideal S66x64 .f32) (r : Fin 524288) (hq : RowWord (x1 (ix1 r))) (k : Fin 64) :
    val_main_v17 (F := Ideal) x1 x2 (ix2 r k) = pick x2 (x1 (ix1 r)) k := by
  have i16 : idx_main_v16 (ix2 r (0 : Fin 1)) = ix1 r := funext fun a => Fin.ext (by match a with | ⟨0, _⟩ => rfl)
  have e : val_main_v16 (F := Ideal) x1 (ix2 r (0 : Fin 1)) = x1 (ix1 r) := by
    rw [val_main_v16_apply, i16, val_main_v15_apply, val_main_v12_apply, val_main_v14_apply, val_main_v11_apply,
      val_main_v13_apply, val_main_c_2_apply, val_main_c_3_apply]
    exact wrap_rowWord hq
  unfold val_main_v17
  rw [gather_query_apply]
  refine (congrArg x2 (funext fun a => Fin.ext ?_)).trans (pick_rowWord x2 hq k).symm
  match a with
  | ⟨0, _⟩ =>
    show min (val_main_v16 (F := Ideal) x1 (ix2 r (0 : Fin 1))).toInt.toNat 65 = (x1 (ix1 r)).toNat
    rw [e, hq.clamp]
  | ⟨1, _⟩ => rfl

/-- One looked-up memory row. -/
theorem mem_lookup (x0 : IVec S524288x48 32) (x2 : FVec Ideal S66x64 .f32) (r : Fin 524288) (s : Fin 4) (k48 : Fin 48)
    (h48 : k48.val = 43 + s.val) (hm : RowWord (x0 (ix2 r k48))) (k : Fin 64) :
    val_main_v7 (F := Ideal) x0 x2 (idx_main_v8 (ix2 r k) s) = pick x2 (x0 (ix2 r k48)) k := by
  have i8 : idx_main_v8 (ix2 r k) s = ix3 r s k :=
    funext fun a => Fin.ext (by match a with | ⟨0, _⟩ => rfl | ⟨1, _⟩ => rfl | ⟨2, _⟩ => rfl)
  have i6 : idx_main_v6 (ix3 r s (0 : Fin 1)) = ix2 r s :=
    funext fun a => Fin.ext (by match a with | ⟨0, _⟩ => rfl | ⟨1, _⟩ => rfl)
  have i0 : idx_main_v0 (ix2 r s) = ix2 r k48 :=
    funext fun a => Fin.ext (by match a with | ⟨0, _⟩ => rfl | ⟨1, _⟩ => exact h48.symm)
  have e : val_main_v6 (F := Ideal) x0 (ix3 r s (0 : Fin 1)) = x0 (ix2 r k48) := by
    rw [val_main_v6_apply, i6, val_main_v5_apply, val_main_v2_apply, val_main_v4_apply, val_main_v0_apply, i0,
      val_main_v1_apply, val_main_v3_apply, val_main_c_apply, val_main_c_0_apply]
    exact wrap_rowWord hm
  rw [i8]
  unfold val_main_v7
  rw [gather_mem_apply]
  refine (congrArg x2 (funext fun a => Fin.ext ?_)).trans (pick_rowWord x2 hm k).symm
  match a with
  | ⟨0, _⟩ =>
    show min (val_main_v6 (F := Ideal) x0 (ix3 r s (0 : Fin 1))).toInt.toNat 65 = (x0 (ix2 r k48)).toNat
    rw [e, hm.clamp]
  | ⟨1, _⟩ => rfl

/-- The memory summary: the mean of the four looked-up rows. -/
theorem mem_row (x0 : IVec S524288x48 32) (x2 : FVec Ideal S66x64 .f32) (r : Fin 524288)
    (hm : ∀ (s : Fin 4) (k : Fin 48), k.val = 43 + s.val → RowWord (x0 (ix2 r k))) (k : Fin 64) :
    val_main_v10 (F := Ideal) x0 x2 (ix2 r k)
      = memMean x2 (x0 (ix2 r (43 : Fin 48))) (x0 (ix2 r (44 : Fin 48))) (x0 (ix2 r (45 : Fin 48))) (x0 (ix2 r (46 : Fin 48))) k := by
  rw [val_main_v10_apply, val_main_v8_apply, val_main_v9_apply, val_main_cst_1_apply, val_main_cst_apply, Fin.sum_univ_four,
    mem_lookup x0 x2 r 0 43 rfl (hm 0 43 rfl) k, mem_lookup x0 x2 r 1 44 rfl (hm 1 44 rfl) k,
    mem_lookup x0 x2 r 2 45 rfl (hm 2 45 rfl) k, mem_lookup x0 x2 r 3 46 rfl (hm 3 46 rfl) k]
  show Ideal.div (Ideal.ofBits .f32 0x00000000#32 + _) (Ideal.ofBits .f32 0x40800000#32) = _
  rw [Ideal.ofBits_zero_f32, zero_add, div_four]
  rfl

/-- The hidden layer: the product with the concatenation splits into the two halves' products. -/
theorem hidden_row (x0 : IVec S524288x48 32) (x1 : IVec S524288 32) (x2 : FVec Ideal S66x64 .f32) (x3 : FVec Ideal S64x128 .f32)
    (x4 : FVec Ideal S64 .f32) (r : Fin 524288) (hq : RowWord (x1 (ix1 r)))
    (hm : ∀ (s : Fin 4) (k : Fin 48), k.val = 43 + s.val → RowWord (x0 (ix2 r k))) (j : Fin 64) :
    val_main_v24 (F := Ideal) x0 x1 x2 x3 x4 (ix2 r j)
      = hidden x2 (wFirst x3) (wSecond x3) x4 (x1 (ix1 r)) (x0 (ix2 r (43 : Fin 48))) (x0 (ix2 r (44 : Fin 48)))
          (x0 (ix2 r (45 : Fin 48))) (x0 (ix2 r (46 : Fin 48))) j := by
  have i22 : idx_main_v21 (idx_main_v22 (ix2 r j)) = ix1 j := funext fun a => Fin.ext (by match a with | ⟨0, _⟩ => rfl)
  rw [val_main_v24_apply, val_main_v23_apply, val_main_v20_apply, val_main_v22_apply, val_main_v21_apply, i22,
    val_main_call0_v0_apply, val_main_call0_cst_apply, sum_split_128]
  unfold hidden
  show max ((∑ k : Fin 64, _ + ∑ k : Fin 64, _) + x4 (ix1 j)) (Ideal.ofBits .f32 0x00000000#32) = _
  rw [Ideal.ofBits_zero_f32]
  refine congrArg (fun z => max (z + x4 (ix1 j)) 0) ?_
  refine congr (congrArg HAdd.hAdd (Finset.sum_congr rfl fun k _ => ?_)) (Finset.sum_congr rfl fun k _ => ?_)
  · have il : lidx_main_v20 (ix2 r j) (⟨k.val, by omega⟩ : Fin 128) = ix2 r (⟨k.val, by omega⟩ : Fin 128) :=
      funext fun a => Fin.ext (by match a with | ⟨0, _⟩ => rfl | ⟨1, _⟩ => rfl)
    have ir : idx_main_v19 (ridx_main_v20 (ix2 r j) (⟨k.val, by omega⟩ : Fin 128)) = ix2 j (⟨k.val, by omega⟩ : Fin 128) :=
      funext fun a => Fin.ext (by match a with | ⟨0, _⟩ => rfl | ⟨1, _⟩ => rfl)
    rw [il, val_main_v19_apply, ir]
    unfold val_main_v18
    rw [Cert.LibConcatDot.concat_left 524288 64 128 rfl _ _ _ r k ⟨k.val, by omega⟩ rfl, query_row x1 x2 r hq k]
    rfl
  · have il : lidx_main_v20 (ix2 r j) (⟨64 + k.val, by omega⟩ : Fin 128) = ix2 r (⟨64 + k.val, by omega⟩ : Fin 128) :=
      funext fun a => Fin.ext (by match a with | ⟨0, _⟩ => rfl | ⟨1, _⟩ => rfl)
    have ir : idx_main_v19 (ridx_main_v20 (ix2 r j) (⟨64 + k.val, by omega⟩ : Fin 128)) = ix2 j (⟨64 + k.val, by omega⟩ : Fin 128) :=
      funext fun a => Fin.ext (by match a with | ⟨0, _⟩ => rfl | ⟨1, _⟩ => rfl)
    rw [il, val_main_v19_apply, ir]
    unfold val_main_v18
    rw [Cert.LibConcatDot.concat_right 524288 64 128 rfl _ _ _ r k ⟨64 + k.val, by omega⟩ rfl, mem_row x0 x2 r hm k]
    rfl

/-- The reference's result is the result function of the seven arguments. -/
theorem ref_result (x0 : IVec S524288x48 32) (x1 : IVec S524288 32) (x2 : FVec Ideal S66x64 .f32) (x3 : FVec Ideal S64x128 .f32)
    (x4 : FVec Ideal S64 .f32) (x5 : FVec Ideal S64x64 .f32) (x6 : FVec Ideal S64 .f32)
    (hq : ∀ r : Fin 524288, RowWord (x1 (ix1 r)))
    (hm : ∀ (r : Fin 524288) (s : Fin 4) (k : Fin 48), k.val = 43 + s.val → RowWord (x0 (ix2 r k))) :
    val_main_v29 (F := Ideal) x0 x1 x2 x3 x4 x5 x6 = result x0 x1 x2 x3 x4 x5 x6 := by
  funext i
  obtain ⟨r, c, rfl⟩ : ∃ (r : Fin 524288) (c : Fin 64), i = ix2 r c := ⟨i 0, i 1, eq_ix2 i⟩
  have i28 : idx_main_v27 (idx_main_v28 (ix2 r c)) = ix1 c := funext fun a => Fin.ext (by match a with | ⟨0, _⟩ => rfl)
  rw [val_main_v29_apply, val_main_v26_apply, val_main_v28_apply, val_main_v27_apply, i28]
  unfold result logit
  show (∑ j : Fin 64, _) + x6 (ix1 c) = _
  refine congrArg (· + x6 (ix1 c)) (Finset.sum_congr rfl fun j _ => ?_)
  have il : lidx_main_v26 (ix2 r c) j = ix2 r j :=
    funext fun a => Fin.ext (by match a with | ⟨0, _⟩ => rfl | ⟨1, _⟩ => rfl)
  have ir : idx_main_v25 (ridx_main_v26 (ix2 r c) j) = ix2 c j :=
    funext fun a => Fin.ext (by match a with | ⟨0, _⟩ => rfl | ⟨1, _⟩ => rfl)
  rw [il, val_main_v25_apply, ir, hidden_row x0 x1 x2 x3 x4 r (hq r) (hm r) j]
  rfl

end Cert.LruMlp

end
-- ==== Proof.Domain.lean ====
/-
  What the precondition says of the token arrays.

  The precondition is a conjunction of "all" tests; besides the finiteness of the float arguments it states, entry by
  entry, 0 ≤ t and t < 66 (as signed integers) for the four memory-token columns 43 … 46 of the sequence array and for the
  query-token array. A conjunction that comes out 1 has every conjunct 1, an "all" that comes out 1 has a 1 at every entry,
  and a signed comparison that is 1 is the order of the integers.
-/
import proofs.«153594_j77068893160294_1_alg».proof.Pre_finite_inputs
import proofs.«153594_j77068893160294_1_alg».proof.Proof.Spec
import Idealize.ShloMosaic.Lib.ReduceAll
import Idealize.ShloMosaic.Lib.ValueLayout

noncomputable section

namespace Cert.LruMlp

open Idealize.ShloMosaic Idealize.ShloMosaic.ValueIdx Cert.Pre_finite_inputs

variable [Cert.Pre_finite_inputs.Facts]

instance : Subsingleton S_.Idx := ⟨fun a b => funext fun d => d.elim0⟩

/-- Under the precondition every token that selects a row of the table names one. -/
theorem tokens_name_rows {F : FTy → Type} [FloatOps F] (a0 : IVec S524288x48 32) (a1 : IVec S524288 32) (a2 : FVec F S66x64 .f32)
    (a3 : FVec F S64x128 .f32) (a4 : FVec F S64 .f32) (a5 : FVec F S64x64 .f32) (a6 : FVec F S64 .f32)
    (h : fn (F := F) a0 a1 a2 a3 a4 a5 a6 = fun _ => 1#1) :
    (∀ (r : Fin 524288) (s : Fin 4) (k : Fin 48), k.val = 43 + s.val → RowWord (a0 (ix2 r k)))
      ∧ ∀ r : Fin 524288, RowWord (a1 (ix1 r)) := by
  have h0 := congrFun h ix0
  dsimp only [fn, fn_part1, fn_part2] at h0
  obtain ⟨h32, h38⟩ := IntOp.andi_eq_one.1 h0
  obtain ⟨-, h31⟩ := IntOp.andi_eq_one.1 h32
  refine ⟨fun r s k hk => ?_, fun r => ?_⟩
  · have e := Host.reduce_andi_all _ _ _ _ ix0 h31 (ix2 r s)
    obtain ⟨e1, e2⟩ := IntOp.andi_eq_one.1 e
    have g1 := IntOp.cmpi_sge.1 e1
    have g2 := IntOp.cmpi_slt.1 e2
    rw [slice2_axis1_apply 43 a0 _ r s k hk] at g1 g2
    rw [broadcastInDim_apply _ _ _ (ix2 r s) ix0 (fun a => a.elim0)] at g1 g2
    exact ⟨g1, g2⟩
  · have e := Host.reduce_andi_all _ _ _ _ ix0 h38 (ix1 r)
    obtain ⟨e1, e2⟩ := IntOp.andi_eq_one.1 e
    have g1 := IntOp.cmpi_sge.1 e1
    have g2 := IntOp.cmpi_slt.1 e2
    rw [broadcastInDim_apply _ _ _ (ix1 r) ix0 (fun a => a.elim0)] at g1 g2
    exact ⟨g1, g2⟩

end Cert.LruMlp

end
-- ==== Proof.lean ====
/-
  The kernel and the reference compute one function of their arguments on the extended reals.

  Per row the programs take five token words — the query token and the memory tokens in columns 43 … 46 of the sequence
  array — select rows of the 66×64 embedding table, average the four memory rows, and apply a two-layer network:
      out(c) = Σ_j max(Σ_k q_k·W₁(j,k) + Σ_k mean_k·W₁(j,64+k) + b₁(j), 0)·W₂(c,j) + b₂(c).
  The kernel selects a row by the indicator sum Σ_v [t = v]·E(v,·) (a product of an indicator matrix with the table) and
  scales the sum of the four memory rows by the word for 1/4; the reference looks the row up (wrapping a negative token and
  clamping), divides the sum by 4, and multiplies the concatenation [q | mean] with the transposed weight. For a token that
  names a row of the table the indicator sum IS that row and wrapping and clamping do nothing; division by 4 is the product
  with 1/4 on every extended real; a sum over 128 terms splits at 64. The precondition states, besides finiteness of the
  float arguments (which this proof never needs: no law used here fails at an infinity), that every selecting token lies in
  0 … 65. The kernel side is the generated frame run with the output array named, read block by block (128 blocks of 4096
  rows tile the output, and a row's value depends on the token array through that row alone); the reference side is its
  generated run read one operation at a time.
-/
import proofs.«153594_j77068893160294_1_alg».proof.Defs
import proofs.«153594_j77068893160294_1_alg».proof.Proof.Gen.Kernel
import proofs.«153594_j77068893160294_1_alg».proof.Proof.Gen.Kernel.Frame
import proofs.«153594_j77068893160294_1_alg».proof.Proof.Gen.KernelIdeal
import proofs.«153594_j77068893160294_1_alg».proof.Proof.Gen.KernelIdeal.Frame
import proofs.«153594_j77068893160294_1_alg».proof.Proof.Gen.KernelIdeal.Value
import proofs.«153594_j77068893160294_1_alg».proof.Proof.Gen.ReferenceIdeal
import proofs.«153594_j77068893160294_1_alg».proof.Proof.Gen.ReferenceIdeal.Run
import proofs.«153594_j77068893160294_1_alg».proof.Proof.Gen.ReferenceIdeal.Read
import proofs.«153594_j77068893160294_1_alg».proof.Proof.Gen.Pre_finite_inputs
import proofs.«153594_j77068893160294_1_alg».proof.Proof.KernelValue
import proofs.«153594_j77068893160294_1_alg».proof.Proof.RefValue
import proofs.«153594_j77068893160294_1_alg».proof.Proof.Domain
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the result function of the arguments. -/
theorem algebraic : Cert.algebraic_KernelIdeal_ReferenceIdeal := by
  intro m ρ m' ρ' hpre hagree
  refine ⟨fun c => Cert.LruMlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), Cert.LruMlp.kernel_run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v29_eq _ _ _ _ _ _ _).trans ?_)
  rw [(hagree c).1, (hagree c).2.1, (hagree c).2.2.1, (hagree c).2.2.2.1, (hagree c).2.2.2.2.1, (hagree c).2.2.2.2.2.1,
    (hagree c).2.2.2.2.2.2]
  obtain ⟨hm, hq⟩ := Cert.LruMlp.tokens_name_rows _ _ _ _ _ _ _ (hpre c)
  exact Cert.LruMlp.ref_result _ _ _ _ _ _ _ hq hm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
